-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S8192x4096 : Shape := ⟨2, ![8192, 4096]⟩
abbrev S_ : Shape := ⟨0, ![]⟩
abbrev S8640x4096 : Shape := ⟨2, ![8640, 4096]⟩
abbrev S8640x11008 : Shape := ⟨2, ![8640, 11008]⟩
abbrev S864x4096 : Shape := ⟨2, ![864, 4096]⟩
abbrev S128x4096 : Shape := ⟨2, ![128, 4096]⟩
abbrev S128x1 : Shape := ⟨2, ![128, 1]⟩
abbrev S128 : Shape := ⟨1, ![128]⟩
abbrev S864x128 : Shape := ⟨2, ![864, 128]⟩
abbrev S1x128 : Shape := ⟨2, ![1, 128]⟩
abbrev S8192x11008 : Shape := ⟨2, ![8192, 11008]⟩
abbrev S4x2048x11008 : Shape := ⟨3, ![4, 2048, 11008]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S8192x4096, .f32⟩
  | .hbm, ⟨5, _⟩ => ⟨S_, .i32⟩
  | .hbm, ⟨6, _⟩ => ⟨S_, .f32⟩
  | .hbm, ⟨7, _⟩ => ⟨S8640x4096, .f32⟩
  | .hbm, ⟨8, _⟩ => ⟨S8640x11008, .f32⟩
  | .hbm, ⟨9, _⟩ => ⟨S8192x11008, .f32⟩
  | .hbm, ⟨10, _⟩ => ⟨S4x2048x11008, .f32⟩
  | .local _ .vmem, ⟨0, _⟩ => ⟨S864x4096, .f32⟩
  | .local _ .vmem, ⟨1, _⟩ => ⟨S864x4096, .f32⟩
  | .local _ .vmem, ⟨2, _⟩ => ⟨S128x4096, .f32⟩
  | .local _ .vmem, ⟨3, _⟩ => ⟨S128x4096, .f32⟩
  | .local _ .vmem, ⟨4, _⟩ => ⟨S128x1, .f32⟩
  | .local _ .vmem, ⟨5, _⟩ => ⟨S128x1, .f32⟩
  | .local _ .vmem, ⟨6, _⟩ => ⟨S128, .f32⟩
  | .local _ .vmem, ⟨7, _⟩ => ⟨S128, .f32⟩
  | .local _ .vmem, ⟨8, _⟩ => ⟨S864x128, .f32⟩
  | .local _ .vmem, ⟨9, _⟩ => ⟨S864x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S864x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S864x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  pads_S8192x4096_S8640x4096_04480_000 : S8192x4096.Pads (![0, 0] : Fin 2 → Nat) ![448, 0] ![0, 0] S8640x4096
  h_S_ : 0 < S_.numel
  inb_S864x4096_S864x4096_0_0 : ∀ a, (![0, 0] : Fin 2 → Nat) a + S864x4096.size a ≤ S864x4096.size a
  h_S864x4096 : 0 < S864x4096.numel
  shapeCasts_S864x4096_S864x4096 : S864x4096.ShapeCasts S864x4096
  inb_S128x4096_S128x4096_0_0 : ∀ a, (![0, 0] : Fin 2 → Nat) a + S128x4096.size a ≤ S128x4096.size a
  h_S128x4096 : 0 < S128x4096.numel
  inb_S128x1_S128x1_0_0 : ∀ a, (![0, 0] : Fin 2 → Nat) a + S128x1.size a ≤ S128x1.size a
  h_S128x1 : 0 < S128x1.numel
  inb_S128_S128_0 : ∀ a, (![0] : Fin 1 → Nat) a + S128.size a ≤ S128.size a
  h_S128 : 0 < S128.numel
  broadcasts_S128x1_S128x4096 : S128x1.Broadcasts S128x4096
  bitsLt_bf16_f32 : FTy.bits .bf16 < FTy.bits .f32
  shapeCasts_S128_S1x128 : S128.ShapeCasts S1x128
  broadcasts_S1x128_S864x128 : S1x128.Broadcasts S864x128
  inb_S864x128_S864x128_0_0 : ∀ a, (![0, 0] : Fin 2 → Nat) a + S864x128.size a ≤ S864x128.size a
  h_S864x128 : 0 < S864x128.numel
  slices_S8640x11008_S8192x11008_0_0 : S8640x11008.Slices ![0, 0] S8192x11008
  shapeCasts_S8192x11008_S4x2048x11008 : S8192x11008.ShapeCasts S4x2048x11008
  dot_S864x4096_S128x4096_S864x128_1_1_0_0_n_n_wf : DotDims.WF S864x4096 S128x4096 S864x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S864x4096.size a ≤ S8640x4096.size a
  hwx0_0 : ∀ i : grid0.Coords, EltTy.bits .f32 = 32 ∨ (Rect.block (s := S8640x4096) S864x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S11008x1.size a
  hwx0_2 : ∀ i : grid0.Coords, EltTy.bits .f32 = 32 ∨ (Rect.block (s := S11008x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S11008.size a
  hwx0_3 : ∀ i : grid0.Coords, EltTy.bits .f32 = 32 ∨ (Rect.block (s := S11008) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S864x128.size a ≤ S8640x11008.size a
  hwx0_4 : ∀ i : grid0.Coords, EltTy.bits .f32 = 32 ∨ (Rect.block (s := S8640x11008) S864x128.size (cc0_transform_4 i) (hinb0_4 i)).WholeWords (EltTy.packing .f32)

variable [Facts₀]

def dot_S864x4096_S128x4096_S864x128_1_1_0_0_n_n : DotDims S864x4096 S128x4096 S864x128 where
  lhsContracting := [1]
  rhsContracting := [1]
  lhsNonContracting := [0]
  rhsNonContracting := [0]
  lhsBatch := []
  rhsBatch := []
  wf := dot_S864x4096_S128x4096_S864x128_1_1_0_0_n_n_wf

abbrev win0_0 : Pipeline.Window sig grid0 :=
  Pipeline.Window.ofSpec (Memref.whole main_v1) S864x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S864x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S4x2048x11008, .f32⟩
  | .hbm, ⟨7, _⟩ => ⟨S1x1x11008, .f32⟩
  | .hbm, ⟨8, _⟩ => ⟨S4x2048x11008, .f32⟩
  | .hbm, ⟨9, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.Spec.lean ====
/-
  The quantized linear layer as one function of its four arrays, on the extended reals.

  With x of shape [4, 2048, 4096], a weight payload w of shape [11008, 4096], one scale per output channel
  s : [11008, 1] and a bias b : [11008], the layer's value at (batch, position, channel) is

      out (β, σ, o) = Σ_k x (β, σ, k) · (w (o, k) · s (o, 0)) + b (o).

  The same map on a matrix of 8640 rows (the 8192 = 4 · 2048 rows of x laid one after the other and followed by 448
  rows of padding) is `rowsAffine`; row β · 2048 + σ of that matrix is row (β, σ) of x, so entry (β · 2048 + σ, o)
  of `rowsAffine` is `affine` at (β, σ, o) whatever the padding rows hold.
-/
import Idealize.ShloMosaic.Lib.ValueIdx
import Idealize.ShloMosaic.PureOps.Ideal.Laws

noncomputable section

open scoped BigOperators

namespace Cert.QLinear

open Idealize.ShloMosaic Idealize.ShloMosaic.ValueIdx

/-- Entry (r, o) of the layer on a matrix of 8640 rows: Σ_k X (r, k) · (W (o, k) · S (o, 0)) + B (o). -/
def rowsAffine (X : (⟨2, ![8640, 4096]⟩ : Shape).Idx → EReal) (W : (⟨2, ![11008, 4096]⟩ : Shape).Idx → EReal)
    (S : (⟨2, ![11008, 1]⟩ : Shape).Idx → EReal) (B : (⟨1, ![11008]⟩ : Shape).Idx → EReal) :
    (⟨2, ![8640, 11008]⟩ : Shape).Idx → EReal :=
  fun i => (∑ k : Fin 4096, X (ix2 (i 0 : Fin 8640) k) * (W (ix2 (i 1 : Fin 11008) k) * S (ix2 (i 1 : Fin 11008) (0 : Fin 1))))
    + B (ix1 (i 1 : Fin 11008))

theorem rowsAffine_apply (X : (⟨2, ![8640, 4096]⟩ : Shape).Idx → EReal) (W : (⟨2, ![11008, 4096]⟩ : Shape).Idx → EReal)
    (S : (⟨2, ![11008, 1]⟩ : Shape).Idx → EReal) (B : (⟨1, ![11008]⟩ : Shape).Idx → EReal) (r : Fin 8640) (o : Fin 11008) :
    rowsAffine X W S B (ix2 r o)
      = (∑ k : Fin 4096, X (ix2 r k) * (W (ix2 o k) * S (ix2 o (0 : Fin 1)))) + B (ix1 o) := rfl

/-- Entry (β, σ, o) of the layer: Σ_k x (β, σ, k) · (W (o, k) · S (o, 0)) + B (o). -/
def affine (x : (⟨3, ![4, 2048, 4096]⟩ : Shape).Idx → EReal) (W : (⟨2, ![11008, 4096]⟩ : Shape).Idx → EReal)
    (S : (⟨2, ![11008, 1]⟩ : Shape).Idx → EReal) (B : (⟨1, ![11008]⟩ : Shape).Idx → EReal) :
    (⟨3, ![4, 2048, 11008]⟩ : Shape).Idx → EReal :=
  fun i => (∑ k : Fin 4096, x (ix3 (i 0 : Fin 4) (i 1 : Fin 2048) k)
      * (W (ix2 (i 2 : Fin 11008) k) * S (ix2 (i 2 : Fin 11008) (0 : Fin 1))))
    + B (ix1 (i 2 : Fin 11008))

theorem affine_apply (x : (⟨3, ![4, 2048, 4096]⟩ : Shape).Idx → EReal) (W : (⟨2, ![11008, 4096]⟩ : Shape).Idx → EReal)
    (S : (⟨2, ![11008, 1]⟩ : Shape).Idx → EReal) (B : (⟨1, ![11008]⟩ : Shape).Idx → EReal)
    (β : Fin 4) (σ : Fin 2048) (o : Fin 11008) :
    affine x W S B (ix3 β σ o)
      = (∑ k : Fin 4096, x (ix3 β σ k) * (W (ix2 o k) * S (ix2 o (0 : Fin 1)))) + B (ix1 o) := rfl

end Cert.QLinear

end
-- ==== Proof.Payload.lean ====
/-
  What the kernel body stores, read at one entry.

  At a grid point the body holds a block X of 864 rows of the (padded) row matrix, a block W of 128 rows of the weight
  payload, the 128 scales S of those channels as a column, and their 128 biases B. It scales every row of W by its
  channel's scale, multiplies X by the transpose of the scaled block, contracting the 4096 features, and adds the bias
  of each channel to every row. A change of float format is the identity on the extended reals, so the stored block is

      (p, q) ↦ Σ_k X (p, k) · (W (q, k) · S (q, 0)) + B (q).
-/
import proofs.«135779_j38104949850743_1_alg».proof.Proof.Gen.KernelIdeal.Skeleton
import proofs.«135779_j38104949850743_1_alg».proof.Proof.LibMatmulNT
import proofs.«135779_j38104949850743_1_alg».proof.Proof.LibColumnForms
import proofs.«135779_j38104949850743_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The stored block at entry (p, q): the product of row p of X with the scaled row q of W, plus the bias of q. -/
theorem stored_apply (x0 : Vec Ideal S864x4096 .f32) (x1 : Vec Ideal S128x4096 .f32) (x2 : Vec Ideal S128x1 .f32)
    (x3 : Vec Ideal S128 .f32) (p : Fin 864) (q : Fin 128) :
    k0_pay1 (F := Ideal) x0 x1 x2 x3 (ix2 p q)
      = (∑ k : Fin 4096, x0 (ix2 p k) * (x1 (ix2 q k) * x2 (ix2 q (0 : Fin 1)))) + x3 (ix1 q) := by
  unfold k0_pay1
  refine congrArg₂ (· + ·) ?_ ?_
  · refine (Cert.Lib.MatmulNT.matmul_zero_nt_apply dot_S864x4096_S128x4096_S864x128_1_1_0_0_n_n_wf none _ _ p q).trans ?_
    refine Finset.sum_congr rfl fun k _ => ?_
    refine congrArg₂ (· * ·) ?_ ?_
    · exact congrFun (shapeCast_self x0 shapeCasts_S864x4096_S864x4096) (ix2 p k)
    · exact congrArg (x1 (ix2 q k) * ·)
        (Cert.Lib.ColumnForms.broadcastTo_a1_ab_apply x2 broadcasts_S128x1_S128x4096 q k)
  · refine (broadcastTo_1b_ab_apply _ broadcasts_S1x128_S864x128 p q).trans ?_
    exact shapeCast_a_1a_apply x3 shapeCasts_S128_S1x128 (0 : Fin 1) q

/-- The stored block is a block of the layer on 8640 rows: if X holds the rows a · 864 + p of a row matrix A₀, and W, S,
    B hold the channels b · 128 + q of A₁, A₂, A₃, then entry (p, q) of the stored block is entry (a · 864 + p, b · 128 + q)
    of the layer of A₀, A₁, A₂, A₃. -/
theorem stored_block (x0 : Vec Ideal S864x4096 .f32) (x1 : Vec Ideal S128x4096 .f32) (x2 : Vec Ideal S128x1 .f32)
    (x3 : Vec Ideal S128 .f32)
    (A0 : (⟨2, ![8640, 4096]⟩ : Shape).Idx → EReal) (A1 : (⟨2, ![11008, 4096]⟩ : Shape).Idx → EReal)
    (A2 : (⟨2, ![11008, 1]⟩ : Shape).Idx → EReal) (A3 : (⟨1, ![11008]⟩ : Shape).Idx → EReal) (a b : Nat)
    (h0 : ∀ (p : Fin 864) (k : Fin 4096) (r : Fin 8640), r.val = a * 864 + p.val → x0 (ix2 p k) = A0 (ix2 r k))
    (h1 : ∀ (q : Fin 128) (k : Fin 4096) (o : Fin 11008), o.val = b * 128 + q.val → x1 (ix2 q k) = A1 (ix2 o k))
    (h2 : ∀ (q : Fin 128) (o : Fin 11008), o.val = b * 128 + q.val → x2 (ix2 q (0 : Fin 1)) = A2 (ix2 o (0 : Fin 1)))
    (h3 : ∀ (q : Fin 128) (o : Fin 11008), o.val = b * 128 + q.val → x3 (ix1 q) = A3 (ix1 o))
    (p : Fin 864) (q : Fin 128) (r : Fin 8640) (o : Fin 11008) (hr : r.val = a * 864 + p.val) (ho : o.val = b * 128 + q.val) :
    k0_pay1 (F := Ideal) x0 x1 x2 x3 (ix2 p q) = Cert.QLinear.rowsAffine A0 A1 A2 A3 (ix2 r o) := by
  rw [stored_apply, Cert.QLinear.rowsAffine_apply]
  refine congrArg₂ (· + ·) (Finset.sum_congr rfl fun k _ => ?_) (h3 q o ho)
  rw [h0 p k r hr, h1 q k o ho, h2 q o ho]

end Cert.KernelIdeal.Body

end
-- ==== Proof.Blocks.lean ====
/-
  From the blocks the grid points write back to the whole output array.

  The grid has 10 × 86 points; point (a, b) reads rows a · 864 … a · 864 + 863 of the row matrix, channels
  b · 128 … b · 128 + 127 of the weight payload, of the scales and of the bias, and writes back the 864 × 128 block at
  (a, b) of the output. What it writes is that block of the layer on 8640 rows (the stored block read at an entry), and
  the 860 blocks cover the 8640 × 11008 output: (r, o) lies in the block of point (r / 864, o / 128). Hence the output
  array ends holding the layer of the arrays the region found.
-/
import proofs.«135779_j38104949850743_1_alg».proof.Proof.Gen.KernelIdeal.Frame
import proofs.«135779_j38104949850743_1_alg».proof.Proof.Payload
import proofs.«135779_j38104949850743_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The layer on 8640 rows of the four operands as the region finds them. -/
abbrev layer (c : Dev nD) : S8640x11008.Idx → EReal :=
  Cert.QLinear.rowsAffine (V m c main_v1) (V m c main_arg1) (V m c main_arg2) (V m c main_arg3)

/-- The block indices at a point: the row matrix follows the output's row block, the weight, the scales and the bias
    follow the output's channel block, and nothing else moves; point t is (t / 86, t mod 86). -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 1) = win0_4.index t (1 : Fin 2)
    ∧ win0_4.index t (0 : Fin 2) = t.val / 86 ∧ win0_4.index t (1 : Fin 2) = t.val % 86 :=
  (by decide +kernel : ∀ t : Fin grid0.N, _)

/-- The row block a point reads is the rows a · 864 + p of the row matrix. -/
theorem read_rows (c : Dev nD) (t : Fin cfg0.N) (e0 : win0_0.index t (0 : Fin 2) = win0_4.index t (0 : Fin 2))
    (e1 : win0_0.index t (1 : Fin 2) = 0) (p : Fin 864) (k : Fin 4096) (r : Fin 8640)
    (hr : r.val = win0_4.index t (0 : Fin 2) * 864 + p.val) :
    iblk m c 0 t (ix2 p k) = V m c main_v1 (ix2 r k) := by
  show V m c main_v1 (((cfg0.win 0).blk t).view.emb (ix2 p k)) = V m c main_v1 (ix2 r k)
  refine congrArg (V m c main_v1) (funext fun a => Fin.ext ?_)
  match a with
  | ⟨0, _⟩ => show win0_0.index t (0 : Fin 2) * 864 + 1 * p.val = r.val; omega
  | ⟨1, _⟩ => show win0_0.index t (1 : Fin 2) * 4096 + 1 * k.val = k.val; omega

/-- The weight block a point reads is the channels b · 128 + q of the weight payload. -/
theorem read_weight (c : Dev nD) (t : Fin cfg0.N) (e0 : win0_1.index t (0 : Fin 2) = win0_4.index t (1 : Fin 2))
    (e1 : win0_1.index t (1 : Fin 2) = 0) (q : Fin 128) (k : Fin 4096) (o : Fin 11008)
    (ho : o.val = win0_4.index t (1 : Fin 2) * 128 + q.val) :
    iblk m c 1 t (ix2 q k) = V m c main_arg1 (ix2 o k) := by
  show V m c main_arg1 (((cfg0.win 1).blk t).view.emb (ix2 q k)) = V m c main_arg1 (ix2 o k)
  refine congrArg (V m c main_arg1) (funext fun a => Fin.ext ?_)
  match a with
  | ⟨0, _⟩ => show win0_1.index t (0 : Fin 2) * 128 + 1 * q.val = o.val; omega
  | ⟨1, _⟩ => show win0_1.index t (1 : Fin 2) * 4096 + 1 * k.val = k.val; omega

/-- The scale block a point reads is the scales of those channels. -/
theorem read_scale (c : Dev nD) (t : Fin cfg0.N) (e0 : win0_2.index t (0 : Fin 2) = win0_4.index t (1 : Fin 2))
    (e1 : win0_2.index t (1 : Fin 2) = 0) (q : Fin 128) (o : Fin 11008)
    (ho : o.val = win0_4.index t (1 : Fin 2) * 128 + q.val) :
    iblk m c 2 t (ix2 q (0 : Fin 1)) = V m c main_arg2 (ix2 o (0 : Fin 1)) := by
  show V m c main_arg2 (((cfg0.win 2).blk t).view.emb (ix2 q (0 : Fin 1))) = V m c main_arg2 (ix2 o (0 : Fin 1))
  refine congrArg (V m c main_arg2) (funext fun a => Fin.ext ?_)
  match a with
  | ⟨0, _⟩ => show win0_2.index t (0 : Fin 2) * 128 + 1 * q.val = o.val; omega
  | ⟨1, _⟩ => show win0_2.index t (1 : Fin 2) * 1 + 1 * 0 = 0; omega

/-- The bias block a point reads is the biases of those channels. -/
theorem read_bias (c : Dev nD) (t : Fin cfg0.N) (e0 : win0_3.index t (0 : Fin 1) = win0_4.index t (1 : Fin 2))
    (q : Fin 128) (o : Fin 11008) (ho : o.val = win0_4.index t (1 : Fin 2) * 128 + q.val) :
    iblk m c 3 t (ix1 q) = V m c main_arg3 (ix1 o) := by
  show V m c main_arg3 (((cfg0.win 3).blk t).view.emb (ix1 q)) = V m c main_arg3 (ix1 o)
  refine congrArg (V m c main_arg3) (funext fun a => Fin.ext ?_)
  match a with
  | ⟨0, _⟩ => show win0_3.index t (0 : Fin 1) * 128 + 1 * q.val = o.val; omega

/-- What point t writes back is block t of the layer. -/
theorem flushed_eq (c : Dev nD) (t : Fin cfg0.N) :
    (dats m 0 c).flushed 4 t = ((cfg0.win 4).blk t).view.read (Elt Ideal) (layer m c) := by
  show (cfg0.win 4).cut (grid0.coords t) ((dats m 0 c).after 4 t) = _
  rw [after0_4]
  unfold out0_4
  rw [View.canon_unit_zero zero2]
  simp only [View.ld_unit_zero (S := S864x4096) zero2, View.ld_unit_zero (S := S128x4096) zero2,
    View.ld_unit_zero (S := S128x1) zero2, View.ld_unit_zero (S := S128) zero1]
  obtain ⟨e0, e1, e2, e3, e4, e5, e6, v0, v1⟩ := idx_facts t
  have hN : cfg0.N = 860 := N_0
  have htN : t.val < 860 := hN ▸ t.isLt
  refine funext fun (j : S864x128.Idx) => ?_
  obtain ⟨p, q, rfl⟩ : ∃ (p : Fin 864) (q : Fin 128), j = ix2 p q := ⟨j 0, j 1, eq_ix2 j⟩
  show k0_pay1 (iblk m c 0 t) (iblk m c 1 t) (iblk m c 2 t) (iblk m c 3 t) (ix2 p q)
    = layer m c (((cfg0.win 4).blk t).view.emb (ix2 p q))
  have hb0 : win0_4.index t (0 : Fin 2) * 864 + p.val < 8640 := by have := p.isLt; omega
  have hb1 : win0_4.index t (1 : Fin 2) * 128 + q.val < 11008 := by have := q.isLt; omega
  have hemb : ((cfg0.win 4).blk t).view.emb (ix2 p q)
      = ix2 (⟨win0_4.index t (0 : Fin 2) * 864 + p.val, hb0⟩ : Fin 8640) (⟨win0_4.index t (1 : Fin 2) * 128 + q.val, hb1⟩ : Fin 11008) := by
    funext a; apply Fin.ext
    match a with
    | ⟨0, _⟩ => show win0_4.index t (0 : Fin 2) * 864 + 1 * p.val = win0_4.index t (0 : Fin 2) * 864 + p.val; omega
    | ⟨1, _⟩ => show win0_4.index t (1 : Fin 2) * 128 + 1 * q.val = win0_4.index t (1 : Fin 2) * 128 + q.val; omega
  rw [hemb]
  exact Cert.KernelIdeal.Body.stored_block (iblk m c 0 t) (iblk m c 1 t) (iblk m c 2 t) (iblk m c 3 t)
    (V m c main_v1) (V m c main_arg1) (V m c main_arg2) (V m c main_arg3)
    (win0_4.index t (0 : Fin 2)) (win0_4.index t (1 : Fin 2))
    (fun p k r hr => read_rows m c t e0 e1 p k r hr) (fun q k o ho => read_weight m c t e2 e3 q k o ho)
    (fun q o ho => read_scale m c t e4 e5 q o ho) (fun q o ho => read_bias m c t e6 q o ho)
    p q _ _ rfl rfl

/-- An index of the output is in point t's block iff each coordinate is in the block's range on its axis. -/
theorem mem_blk (t : Fin cfg0.N) (i : S8640x11008.Idx) :
    i ∈ ((cfg0.win 4).blk t).view.set ↔ ∀ a : Fin 2, win0_4.index t a * S864x128.size a ≤ (i a).val
      ∧ (i a).val < win0_4.index t a * S864x128.size a + S864x128.size a := by
  show i ∈ ((View.whole main_v2).slice (win0_4.rect t)).set ↔ _
  rw [View.set_slice_whole, Rect.mem_set_unit]
  exact Iff.rfl

/-- Every entry (r, o) of the output is in the block of the point (r / 864) · 86 + o / 128. -/
theorem cover (i : S8640x11008.Idx) :
    ∃ t : Fin cfg0.N, (cfg0.win 4).flush t = true ∧ i ∈ ((cfg0.win 4).blk t).view.set := by
  have hi0 : (i 0).val < 8640 := (i 0).isLt
  have hi1 : (i 1).val < 11008 := (i 1).isLt
  have hN : cfg0.N = 860 := N_0
  obtain ⟨t, ht⟩ : ∃ t : Fin cfg0.N, t.val = (i 0).val / 864 * 86 + (i 1).val / 128 :=
    ⟨⟨(i 0).val / 864 * 86 + (i 1).val / 128, by rw [hN]; omega⟩, rfl⟩
  obtain ⟨-, -, -, -, -, -, -, v0, v1⟩ := idx_facts t
  refine ⟨t, flush0_4 t, ?_⟩
  rw [mem_blk]
  intro a
  match a with
  | ⟨0, _⟩ =>
    show win0_4.index t (0 : Fin 2) * 864 ≤ (i 0).val ∧ (i 0).val < win0_4.index t (0 : Fin 2) * 864 + 864
    omega
  | ⟨1, _⟩ =>
    show win0_4.index t (1 : Fin 2) * 128 ≤ (i 1).val ∧ (i 1).val < win0_4.index t (1 : Fin 2) * 128 + 128
    omega

/-- The output array after the last write-back is the layer of the operands the region found. -/
theorem final (c : Dev nD) : (dats m 0 c).arrAt 4 cfg0.N = layer m c :=
  (dats m 0 c).arrAt_eq_of_cover 4 (layer m c) (fun t _ => flushed_eq m c t) (cover)

end Cert.KernelIdeal.Blocks

end
-- ==== Proof.Entry.lean ====
/-
  What the region finds in its first operand.

  Before the kernel is launched the input x : [4, 2048, 4096] is laid out as a matrix of 8192 = 4 · 2048 rows, row
  β · 2048 + σ being row (β, σ) of x, and 448 rows of padding are put after them. So the 8640-row matrix the kernel reads
  holds x (β, σ, k) at (β · 2048 + σ, k); the other three operands are the arguments themselves.
-/
import proofs.«135779_j38104949850743_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first operand as the region finds it: the rows of x in order, padded below. -/
theorem rows_eq (c : Dev nD) :
    (V m c main_v1 : S8640x4096.Idx → EReal)
      = pad S8640x4096 ![0, 0] ![448, 0] ![0, 0]
          (shapeCast S8192x4096 (m ((c : Thread nD τ).loc main_arg0)) shapeCasts_S4x2048x4096_S8192x4096)
          (sitofp (F := Ideal) .f32 (constantI S_ 32 0#32)) pads_S8192x4096_S8640x4096_04480_000 h_S_ := by
  dsimp only [Gen.V, Gen.V0]
  simp only [Gen.hostOps0, Gen.hostOps0_1, List.flatten_cons, List.flatten_nil, List.append_nil, List.cons_append,
    List.nil_append]
  after_results
  rfl

/-- Row β · 2048 + σ of the first operand is row (β, σ) of x. -/
theorem rows_apply (c : Dev nD) (β : Fin 4) (σ : Fin 2048) (k : Fin 4096) (r : Fin 8640)
    (hr : r.val = β.val * 2048 + σ.val) :
    (V m c main_v1 : S8640x4096.Idx → EReal) (ix2 r k) = m ((c : Thread nD τ).loc main_arg0) (ix3 β σ k) := by
  rw [rows_eq]
  have hlt : r.val < 8192 := by have := β.isLt; have := σ.isLt; omega
  refine (pad_apply_of_inside _ _ _ _ _ pads_S8192x4096_S8640x4096_04480_000 h_S_ (ix2 r k)
    (ix2 (⟨r.val, hlt⟩ : Fin 8192) k) (fun a => ?_)).trans ?_
  · match a with
    | ⟨0, _⟩ => show r.val = 0 + r.val * (0 + 1); omega
    | ⟨1, _⟩ => show k.val = 0 + k.val * (0 + 1); omega
  · refine shapeCast_apply _ shapeCasts_S4x2048x4096_S8192x4096 _ (ix3 β σ k) ?_
    rw [Shape.rowMajor_val_three, Shape.rowMajor_val_two]
    show (β.val * 2048 + σ.val) * 4096 + k.val = r.val * 4096 + k.val
    rw [hr]

end Cert.KernelIdeal.Entry

end
-- ==== Proof.Tail.lean ====
/-
  From the output array to the program's result.

  After the kernel the program keeps the first 8192 of the 8640 output rows and cuts them into 4 batches of 2048: entry
  (β, σ, o) of the result is entry (β · 2048 + σ, o) of the output array. That row of the row matrix is row (β, σ) of x,
  so the result is the layer's value Σ_k x (β, σ, k) · (w (o, k) · s (o, 0)) + b (o): the padding rows are never read.
-/
import proofs.«135779_j38104949850743_1_alg».proof.Proof.Blocks
import proofs.«135779_j38104949850743_1_alg».proof.Proof.Entry
import Idealize.ShloMosaic.Lib.ValueLayout
import Idealize.ShloMosaic.Lib.StableHlo.Run

noncomputable section

open scoped BigOperators

namespace Cert.KernelIdeal.Tail

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The program's result is the first 8192 rows of the output array, cut into 4 batches of 2048. -/
theorem result_eq (c : Dev nD) :
    (Pipeline.afterTail₀ cfgs (dats m) 0 (V0 m) [hostOps1] c main_v4 : S4x2048x11008.Idx → EReal)
      = shapeCast S4x2048x11008
          (extractStridedSlice S8192x11008 ![0, 0] (Blocks.layer m c) slices_S8640x11008_S8192x11008_0_0)
          shapeCasts_S8192x11008_S4x2048x11008 := by
  unfold Pipeline.afterTail₀
  show StableHlo.after hostOps1 _ (Proc.devRef .tc main_v4) = _
  after_results
  rw [(Pipeline.withArrays_arr spec0 launch0.win.arr_inj c _ _ 4).trans (Blocks.final m c)]
  rfl

/-- Entry (β, σ, o) of the result is the layer's value there. -/
theorem result_apply (c : Dev nD) (β : Fin 4) (σ : Fin 2048) (o : Fin 11008) :
    (Pipeline.afterTail₀ cfgs (dats m) 0 (V0 m) [hostOps1] c main_v4 : S4x2048x11008.Idx → EReal) (ix3 β σ o)
      = Cert.QLinear.affine (m ((c : Thread nD τ).loc main_arg0)) (m ((c : Thread nD τ).loc main_arg1))
          (m ((c : Thread nD τ).loc main_arg2)) (m ((c : Thread nD τ).loc main_arg3)) (ix3 β σ o) := by
  rw [result_eq]
  have hβ := β.isLt
  have hσ := σ.isLt
  have h1 : β.val * 2048 + σ.val < 8192 := by omega
  have h2 : β.val * 2048 + σ.val < 8640 := by omega
  refine (shapeCast_apply _ shapeCasts_S8192x11008_S4x2048x11008 (ix3 β σ o)
    (ix2 (⟨β.val * 2048 + σ.val, h1⟩ : Fin 8192) o) ?_).trans ?_
  · rw [Shape.rowMajor_val_three, Shape.rowMajor_val_two]
    rfl
  refine (slice2_axis0_apply 0 _ slices_S8640x11008_S8192x11008_0_0 (⟨β.val * 2048 + σ.val, h1⟩ : Fin 8192) o
    (⟨β.val * 2048 + σ.val, h2⟩ : Fin 8640) (by show β.val * 2048 + σ.val = 0 + (β.val * 2048 + σ.val); omega)).trans ?_
  show Cert.QLinear.rowsAffine (V m c main_v1) (V m c main_arg1) (V m c main_arg2) (V m c main_arg3)
    (ix2 (⟨β.val * 2048 + σ.val, h2⟩ : Fin 8640) o) = _
  rw [Cert.QLinear.rowsAffine_apply, Cert.QLinear.affine_apply, V_main_arg1, V_main_arg2, V_main_arg3]
  refine congrArg₂ (· + ·) (Finset.sum_congr rfl fun k _ => ?_) rfl
  rw [Entry.rows_apply m c β σ k ⟨β.val * 2048 + σ.val, h2⟩ rfl]

/-- The program's result is the layer of its four arguments. -/
theorem result_fun (c : Dev nD) :
    (Pipeline.afterTail₀ cfgs (dats m) 0 (V0 m) [hostOps1] c main_v4 : S4x2048x11008.Idx → EReal)
      = Cert.QLinear.affine (m ((c : Thread nD τ).loc main_arg0)) (m ((c : Thread nD τ).loc main_arg1))
          (m ((c : Thread nD τ).loc main_arg2)) (m ((c : Thread nD τ).loc main_arg3)) := by
  funext i
  obtain ⟨β, σ, o, rfl⟩ : ∃ (β : Fin 4) (σ : Fin 2048) (o : Fin 11008), i = ix3 β σ o := ⟨i 0, i 1, i 2, eq_ix3 i⟩
  exact result_apply m c β σ o

end Cert.KernelIdeal.Tail

end
-- ==== Proof.RefValue.lean ====
/-
  The reference's result, read at one entry.

  The reference scales the weight payload channel by channel, contracts the feature axis of x with that of the scaled
  weight, and adds the bias broadcast over batch and position: at (β, σ, o) it is
  Σ_k x (β, σ, k) · (W (o, k) · S (o, 0)) + B (o), the layer's value.
-/
import proofs.«135779_j38104949850743_1_alg».proof.Proof.Gen.ReferenceIdeal.Read
import proofs.«135779_j38104949850743_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The last stage of the reference is the layer's function of the four arrays. -/
theorem result_eq (x0 : (⟨S4x2048x4096, .f32⟩ : BufTy).Contents (Elt Ideal)) (x1 : (⟨S11008x4096, .f32⟩ : BufTy).Contents (Elt Ideal))
    (x2 : (⟨S11008x1, .f32⟩ : BufTy).Contents (Elt Ideal)) (x3 : (⟨S11008, .f32⟩ : BufTy).Contents (Elt Ideal)) :
    val_main_v5 (F := Ideal) x0 x1 x2 x3 = Cert.QLinear.affine x0 x1 x2 x3 := by
  funext i
  obtain ⟨β, σ, o, rfl⟩ : ∃ (β : Fin 4) (σ : Fin 2048) (o : Fin 11008), i = ix3 β σ o := ⟨i 0, i 1, i 2, eq_ix3 i⟩
  rw [Cert.QLinear.affine_apply, val_main_v5_apply, val_main_v2_apply, val_main_v4_apply, val_main_v3_apply]
  refine congrArg₂ (· + ·) (Finset.sum_congr rfl fun k _ => ?_) ?_
  · rw [val_main_v1_apply, val_main_v0_apply]
    have el : lidx_main_v2 (ix3 β σ o) k = ix3 β σ k := funext fun a => Fin.ext (by
      match a with
      | ⟨0, _⟩ => rfl
      | ⟨1, _⟩ => rfl
      | ⟨2, _⟩ => rfl)
    have er : ridx_main_v2 (ix3 β σ o) k = ix2 o k := funext fun a => Fin.ext (by
      match a with
      | ⟨0, _⟩ => rfl
      | ⟨1, _⟩ => rfl)
    have es : idx_main_v0 (ix2 o k) = ix2 o (0 : Fin 1) := funext fun a => Fin.ext (by
      match a with
      | ⟨0, _⟩ => rfl
      | ⟨1, _⟩ => rfl)
    rw [el, er, es]
    rfl
  · exact congrArg x3 (funext fun a => Fin.ext (by
      match a with
      | ⟨0, _⟩ => rfl))

end Cert.ReferenceIdeal.RefValue

end
-- ==== Proof.Claims.lean ====
/-
  The five claims of the certificate.

  Both idealized programs compute, on the extended reals, the layer

      out (β, σ, o) = Σ_k x (β, σ, k) · (w (o, k) · s (o, 0)) + b (o)

  of their four arguments: the kernel by 860 blocks of a padded row matrix whose padding rows are cut off again, the
  reference in one contraction. The two results are the same function of the arguments term by term — the same products
  in the same order of the feature index — so no law of arithmetic beyond re-indexing is used and the finiteness of the
  inputs is never needed. The kernel's idealization rewrites nothing, so the preservation claim is empty; the three frame
  claims are the programs' runs with the result forgotten.
-/
import proofs.«135779_j38104949850743_1_alg».proof.Defs
import proofs.«135779_j38104949850743_1_alg».proof.Proof.Gen.Kernel.Frame
import proofs.«135779_j38104949850743_1_alg».proof.Proof.Gen.KernelIdeal.Frame
import proofs.«135779_j38104949850743_1_alg».proof.Proof.Gen.ReferenceIdeal.Run
import proofs.«135779_j38104949850743_1_alg».proof.Proof.Gen.ReferenceIdeal.Read
import proofs.«135779_j38104949850743_1_alg».proof.Proof.Gen.Pre_finite_inputs
import proofs.«135779_j38104949850743_1_alg».proof.Proof.Tail
import proofs.«135779_j38104949850743_1_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

section KernelRun

open Cert.KernelIdeal Cert.KernelIdeal.Gen

/-- The idealized kernel program runs, ends with its result at the layer of its four arguments, and leaves the
    arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.QLinear.affine (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans
        (Cert.KernelIdeal.Tail.result_fun m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end KernelRun

/-- From memories that agree on the four arguments the two idealized programs end with the same result: each is the
    layer of its arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

end Cert.Proof.Claims

end
-- ==== Proof.lean ====
/-
  A quantized linear layer computed block by block equals the same layer computed in one contraction, on the extended reals.

  The layer is out (β, σ, o) = Σ_k x (β, σ, k) · (w (o, k) · s (o, 0)) + b (o) for x : [4, 2048, 4096], a weight payload
  w : [11008, 4096] with one scale per output channel s : [11008, 1], and a bias b : [11008]. The kernel program lays the
  8192 rows of x one after the other, pads them to 8640 rows, computes the layer on 864 × 128 blocks of the 8640 × 11008
  output over a 10 × 86 grid, drops the padding rows and cuts the rest back into 4 batches; the reference contracts the
  feature axis once. The modules, in order:
    Proof/Spec.lean      the layer as one function of the four arrays, on three axes and on 8640 rows
    Proof/Payload.lean   what a grid point stores: a block of the layer on 8640 rows
    Proof/Entry.lean     the padded row matrix: row β · 2048 + σ is row (β, σ) of x
    Proof/Blocks.lean    the 860 blocks cover the output array, which therefore ends at the layer on 8640 rows
    Proof/Tail.lean      dropping the padding and regrouping the rows gives the layer of the arguments
    Proof/RefValue.lean  the reference's result is the layer of the arguments
    Proof/Claims.lean    the five claims
-/
import proofs.«135779_j38104949850743_1_alg».proof.Defs
import proofs.«135779_j38104949850743_1_alg».proof.Proof.Gen.Kernel
import proofs.«135779_j38104949850743_1_alg».proof.Proof.Gen.Kernel.Skeleton
import proofs.«135779_j38104949850743_1_alg».proof.Proof.Gen.Kernel.Launch
import proofs.«135779_j38104949850743_1_alg».proof.Proof.Gen.Kernel.Points
import proofs.«135779_j38104949850743_1_alg».proof.Proof.Gen.Kernel.Frame
import proofs.«135779_j38104949850743_1_alg».proof.Proof.Gen.KernelIdeal
import proofs.«135779_j38104949850743_1_alg».proof.Proof.Gen.KernelIdeal.Skeleton
import proofs.«135779_j38104949850743_1_alg».proof.Proof.Gen.KernelIdeal.Launch
import proofs.«135779_j38104949850743_1_alg».proof.Proof.Gen.KernelIdeal.Points
import proofs.«135779_j38104949850743_1_alg».proof.Proof.Gen.KernelIdeal.Frame
import proofs.«135779_j38104949850743_1_alg».proof.Proof.Gen.ReferenceIdeal
import proofs.«135779_j38104949850743_1_alg».proof.Proof.Gen.ReferenceIdeal.Run
import proofs.«135779_j38104949850743_1_alg».proof.Proof.Gen.ReferenceIdeal.Read
import proofs.«135779_j38104949850743_1_alg».proof.Proof.Gen.Pre_finite_inputs
import Idealize.ShloMosaic.Adequacy
import Idealize.ShloMosaic.Init
import proofs.«135779_j38104949850743_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
